-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S512x2352 : Shape := ⟨2, ![512, 2352]⟩
abbrev S512 : Shape := ⟨1, ![512]⟩
abbrev S1x512 : Shape := ⟨2, ![1, 512]⟩
abbrev S65x512 : Shape := ⟨2, ![65, 512]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel
  bcast_S_S512x2352 : S_.BroadcastsInDim S512x2352 (![] : Fin 0 → Fin S512x2352.rank)
  reducesTo_S512x2352_S_d0_1 : S512x2352.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S65x512 : S_.BroadcastsInDim S65x512 (![] : Fin 0 → Fin S65x512.rank)
  reducesTo_S65x512_S_d0_1 : S65x512.ReducesTo [0, 1] S_

variable [Facts]

def fn_part1 {F : FTy → Type} [FloatOps F] (main_arg4 : FVec F S65x512 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S65x512 .f32 := Host.absf main_arg4
  let main_cst_6 : FVec F S_ .f32 := constant S_ .f32 0x7F800000#32
  let main_v20 : FVec F S65x512 .f32 := broadcastInDim S65x512 ![] bcast_S_S65x512 main_cst_6
  let main_v21 : IVec S65x512 1 := cmpf .olt main_v19 main_v20
  let main_c_7 : IVec S_ 1 := constantI S_ 1 1#1
  let main_v22 : IVec S_ 1 := (fun x v => Host.reduce IntOp.andi x v reducesTo_S65x512_S_d0_1 h_S_) main_v21 main_c_7
  let main_v23 : IVec S_ 1 := andi main_v18 main_v22
  main_v23

def fn {F : FTy → Type} [FloatOps F] (main_arg0 : FVec F S256x3x224x224 .f32) (main_arg1 : FVec F S512x2352 .f32) (main_arg2 : FVec F S512 .f32) (main_arg3 : FVec F S1x512 .f32) (main_arg4 : FVec F S65x512 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  let main_v4 : FVec F S512x2352 .f32 := Host.absf main_arg1
  let main_cst_0 : FVec F S_ .f32 := constant S_ .f32 0x7F800000#32
  let main_v5 : FVec F S512x2352 .f32 := broadcastInDim S512x2352 ![] bcast_S_S512x2352 main_cst_0
  let main_v6 : IVec S512x2352 1 := cmpf .olt main_v4 main_v5
  let main_c_1 : IVec S_ 1 := constantI S_ 1 1#1
  let main_v7 : IVec S_ 1 := (fun x v => Host.reduce IntOp.andi x v reducesTo_S512x2352_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_v13 main_v16
-- ==== Kernel.lean ====
abbrev S256x3x224x224 : Shape := ⟨4, ![256, 3, 224, 224]⟩
abbrev S512x2352 : Shape := ⟨2, ![512, 2352]⟩
abbrev S512 : Shape := ⟨1, ![512]⟩
abbrev S1x512 : Shape := ⟨2, ![1, 512]⟩
abbrev S65x512 : Shape := ⟨2, ![65, 512]⟩
abbrev S256x3x8x28x8x28 : Shape := ⟨6, ![256, 3, 8, 28, 8, 28]⟩
abbrev S256x8x8x3x28x28 : Shape := ⟨6, ![256, 8, 8, 3, 28, 28]⟩
abbrev S256x64x2352 : Shape := ⟨3, ![256, 64, 2352]⟩
abbrev S2352x512 : Shape := ⟨2, ![2352, 512]⟩
abbrev S256x65x512 : Shape := ⟨3, ![256, 65, 512]⟩
abbrev S32x64x2352 : Shape := ⟨3, ![32, 64, 2352]⟩
abbrev S32x65x512 : Shape := ⟨3, ![32, 65, 512]⟩
abbrev S2048x2352 : Shape := ⟨2, ![2048, 2352]⟩
abbrev S2048x512 : Shape := ⟨2, ![2048, 512]⟩
abbrev S32x64x512 : Shape := ⟨3, ![32, 64, 512]⟩
abbrev S1x1x512 : Shape := ⟨3, ![1, 1, 512]⟩
abbrev S64x512 : Shape := ⟨2, ![64, 512]⟩
abbrev S32x1x512 : Shape := ⟨3, ![32, 1, 512]⟩
abbrev S1x64x512 : Shape := ⟨3, ![1, 64, 512]⟩

abbrev nBuf : Space → Nat
  | .hbm => 13
  | .vmem => 8
  | .smem => 0
  | _ => 0

abbrev bufTy : (tb : Table) → Fin (tcTables nBuf tb) → BufTy
  | .hbm, ⟨0, _⟩ => ⟨S256x3x224x224, .f32⟩
  | .hbm, ⟨1, _⟩ => ⟨S512x2352, .f32⟩
  | .hbm, ⟨2, _⟩ => ⟨S512, .f32⟩
  | .hbm, ⟨3, _⟩ => ⟨S1x512, .f32⟩
  | .hbm, ⟨4, _⟩ => ⟨S65x512, .f32⟩
  | .hbm, ⟨5, _⟩ => ⟨S256x3x224x224, .bf16⟩
  | .hbm, ⟨6, _⟩ => ⟨S256x3x8x28x8x28, .bf16⟩
  | .hbm, ⟨7, _⟩ => ⟨S256x8x8x3x28x28, .bf16⟩
  | .hbm, ⟨8, _⟩ => ⟨S256x64x2352, .bf16⟩
  | .hbm, ⟨9, _⟩ => ⟨S2352x512, .f32⟩
  | .hbm, ⟨10, _⟩ => ⟨S2352x512, .bf16⟩
  | .hbm, ⟨11, _⟩ => ⟨S1x512, .f32⟩
  | .hbm, ⟨12, _⟩ => ⟨S256x65x512, .f32⟩
  | .local _ .vmem, ⟨0, _⟩ => ⟨S32x64x2352, .bf16⟩
  | .local _ .vmem, ⟨1, _⟩ => ⟨S32x64x2352, .bf16⟩
  | .local _ .vmem, ⟨2, _⟩ => ⟨S2352x512, .bf16⟩
  | .local _ .vmem, ⟨3, _⟩ => ⟨S1x512, .f32⟩
  | .local _ .vmem, ⟨4, _⟩ => ⟨S1x512, .f32⟩
  | .local _ .vmem, ⟨5, _⟩ => ⟨S65x512, .f32⟩
  | .local _ .vmem, ⟨6, _⟩ => ⟨S32x65x512, .f32⟩
  | .local _ .vmem, ⟨7, _⟩ => ⟨S32x65x512, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x2352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2352x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x65x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S256x3x224x224_S256x3x8x28x8x28 : S256x3x224x224.ShapeCasts S256x3x8x28x8x28
  transposes_S256x3x8x28x8x28_S256x8x8x3x28x28_0_2_4_1_3_5 : S256x3x8x28x8x28.Transposes [0, 2, 4, 1, 3, 5] S256x8x8x3x28x28
  shapeCasts_S256x8x8x3x28x28_S256x64x2352 : S256x8x8x3x28x28.ShapeCasts S256x64x2352
  transposes_S512x2352_S2352x512_1_0 : S512x2352.Transposes [1, 0] S2352x512
  shapeCasts_S512_S1x512 : S512.ShapeCasts S1x512
  inb_S32x64x2352_S32x64x2352_0_0_0 : ∀ a, (![0, 0, 0] : Fin 3 → Nat) a + S32x64x2352.size a ≤ S32x64x2352.size a
  h_S32x64x2352 : 0 < S32x64x2352.numel
  shapeCasts_S32x64x2352_S32x64x2352 : S32x64x2352.ShapeCasts S32x64x2352
  shapeCasts_S32x64x2352_S2048x2352 : S32x64x2352.ShapeCasts S2048x2352
  inb_S2352x512_S2352x512_0_0 : ∀ a, (![0, 0] : Fin 2 → Nat) a + S2352x512.size a ≤ S2352x512.size a
  h_S2352x512 : 0 < S2352x512.numel
  shapeCasts_S2352x512_S2352x512 : S2352x512.ShapeCasts S2352x512
  shapeCasts_S2048x512_S32x64x512 : S2048x512.ShapeCasts S32x64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S32x64x512 : S1x1x512.Broadcasts S32x64x512
  inb_S65x512_S65x512_0_0 : ∀ a, (![0, 0] : Fin 2 → Nat) a + S65x512.size a ≤ S65x512.size a
  h_S65x512 : 0 < S65x512.numel
  slices_S65x512_o0_0_S1x512 : S65x512.Slices ![0, 0] S1x512
  slices_S65x512_o1_0_S64x512 : S65x512.Slices ![1, 0] S64x512
  shapeCasts_S1x1x512_S1x1x512 : S1x1x512.ShapeCasts S1x1x512
  broadcasts_S1x1x512_S32x1x512 : S1x1x512.Broadcasts S32x1x512
  inb_S32x65x512_S32x1x512_0_0_0 : ∀ a, (![0, 0, 0] : Fin 3 → Nat) a + S32x1x512.size a ≤ S32x65x512.size a
  h_S32x1x512 : 0 < S32x1x512.numel
  shapeCasts_S64x512_S1x64x512 : S64x512.ShapeCasts S1x64x512
  broadcasts_S1x64x512_S32x64x512 : S1x64x512.Broadcasts S32x64x512
  inb_S32x65x512_S32x64x512_0_1_0 : ∀ a, (![0, 1, 0] : Fin 3 → Nat) a + S32x64x512.size a ≤ S32x65x512.size a
  h_S32x64x512 : 0 < S32x64x512.numel
  dot_S2048x2352_S2352x512_S2048x512_1_0_0_1_n_n_wf : DotDims.WF S2048x2352 S2352x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x2352.size a ≤ S256x64x2352.size a
  hwx0_0 : ∀ i : grid0.Coords, EltTy.bits .bf16 = 32 ∨ (Rect.block (s := S256x64x2352) S32x64x2352.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2352x512.size a ≤ S2352x512.size a
  hwx0_1 : ∀ i : grid0.Coords, EltTy.bits .bf16 = 32 ∨ (Rect.block (s := S2352x512) S2352x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x512.size a ≤ S65x512.size a
  hwx0_4 : ∀ i : grid0.Coords, EltTy.bits .f32 = 32 ∨ (Rect.block (s := S65x512) S65x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x65x512.size a ≤ S256x65x512.size a
  hwx0_5 : ∀ i : grid0.Coords, EltTy.bits .f32 = 32 ∨ (Rect.block (s := S256x65x512) S32x65x512.size (cc0_transform_5 i) (hinb0_5 i)).WholeWords (EltTy.packing .f32)

variable [Facts₀]

def dot_S2048x2352_S2352x512_S2048x512_1_0_0_1_n_n : DotDims S2048x2352 S2352x512 S2048x512 where
  lhsContracting := [1]
  rhsContracting := [0]
  lhsNonContracting := [0]
  rhsNonContracting := [1]
  lhsBatch := []
  rhsBatch := []
  wf := dot_S2048x2352_S2352x512_S2048x512_1_0_0_1_n_n_wf

abbrev win0_0 : Pipeline.Window sig grid0 :=
  Pipeline.Window.ofSpec (Memref.whole main_v3) S32x64x2352.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2352x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S65x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S32x65x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S512x2352 : Shape := ⟨2, ![512, 2352]⟩
abbrev S512 : Shape := ⟨1, ![512]⟩
abbrev S1x512 : Shape := ⟨2, ![1, 512]⟩
abbrev S65x512 : Shape := ⟨2, ![65, 512]⟩
abbrev S256x3x8x28x8x28 : Shape := ⟨6, ![256, 3, 8, 28, 8, 28]⟩
abbrev S256x8x8x3x28x28 : Shape := ⟨6, ![256, 8, 8, 3, 28, 28]⟩
abbrev S256x64x2352 : Shape := ⟨3, ![256, 64, 2352]⟩
abbrev S256x64x512 : Shape := ⟨3, ![256, 64, 512]⟩
abbrev S1x1x512 : Shape := ⟨3, ![1, 1, 512]⟩
abbrev S256x1x512 : Shape := ⟨3, ![256, 1, 512]⟩
abbrev S256x65x512 : Shape := ⟨3, ![256, 65, 512]⟩
abbrev S1x65x512 : Shape := ⟨3, ![1, 65, 512]⟩

abbrev nBuf : Space → Nat
  | .hbm => 18
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S512x2352, .f32⟩
  | .hbm, ⟨2, _⟩ => ⟨S512, .f32⟩
  | .hbm, ⟨3, _⟩ => ⟨S1x512, .f32⟩
  | .hbm, ⟨4, _⟩ => ⟨S65x512, .f32⟩
  | .hbm, ⟨5, _⟩ => ⟨S256x3x8x28x8x28, .f32⟩
  | .hbm, ⟨6, _⟩ => ⟨S256x8x8x3x28x28, .f32⟩
  | .hbm, ⟨7, _⟩ => ⟨S256x64x2352, .f32⟩
  | .hbm, ⟨8, _⟩ => ⟨S256x64x512, .f32⟩
  | .hbm, ⟨9, _⟩ => ⟨S1x1x512, .f32⟩
  | .hbm, ⟨10, _⟩ => ⟨S256x64x512, .f32⟩
  | .hbm, ⟨11, _⟩ => ⟨S256x64x512, .f32⟩
  | .hbm, ⟨12, _⟩ => ⟨S1x1x512, .f32⟩
  | .hbm, ⟨13, _⟩ => ⟨S256x1x512, .f32⟩
  | .hbm, ⟨14, _⟩ => ⟨S256x65x512, .f32⟩
  | .hbm, ⟨15, _⟩ => ⟨S1x65x512, .f32⟩
  | .hbm, ⟨16, _⟩ => ⟨S256x65x512, .f32⟩
  | .hbm, ⟨17, _⟩ => ⟨S256x65x512, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S256x3x224x224_S256x3x8x28x8x28 : S256x3x224x224.ShapeCasts S256x3x8x28x8x28
  transposes_S256x3x8x28x8x28_S256x8x8x3x28x28_0_2_4_1_3_5 : S256x3x8x28x8x28.Transposes [0, 2, 4, 1, 3, 5] S256x8x8x3x28x28
  shapeCasts_S256x8x8x3x28x28_S256x64x2352 : S256x8x8x3x28x28.ShapeCasts S256x64x2352
  bcast_S512_S1x1x512_2 : S512.BroadcastsInDim S1x1x512 (![2] : Fin 1 → Fin S1x1x512.rank)
  bcast_S1x1x512_S256x64x512_0_1_2 : S1x1x512.BroadcastsInDim S256x64x512 (![0, 1, 2] : Fin 3 → Fin S256x64x512.rank)
  bcast_S1x512_S1x1x512_1_2 : S1x512.BroadcastsInDim S1x1x512 (![1, 2] : Fin 2 → Fin S1x1x512.rank)
  bcast_S1x1x512_S256x1x512_0_1_2 : S1x1x512.BroadcastsInDim S256x1x512 (![0, 1, 2] : Fin 3 → Fin S256x1x512.rank)
  concatenates_S256x1x512_S256x64x512_S256x65x512_d1 : Shape.Concatenates [S256x1x512, S256x64x512] S256x65x512 1
  bcast_S65x512_S1x65x512_1_2 : S65x512.BroadcastsInDim S1x65x512 (![1, 2] : Fin 2 → Fin S1x65x512.rank)
  bcast_S1x65x512_S256x65x512_0_1_2 : S1x65x512.BroadcastsInDim S256x65x512 (![0, 1, 2] : Fin 3 → Fin S256x65x512.rank)
  dot_S256x64x2352_S512x2352_S256x64x512_2_1_01_0_n_n_wf : DotDims.WF S256x64x2352 S512x2352 S256x64x512 [2] [1] [0, 1] [0] [] []

variable [Facts₀]

def dot_S256x64x2352_S512x2352_S256x64x512_2_1_01_0_n_n : DotDims S256x64x2352 S512x2352 S256x64x512 where
  lhsContracting := [2]
  rhsContracting := [1]
  lhsNonContracting := [0, 1]
  rhsNonContracting := [0]
  lhsBatch := []
  rhsBatch := []
  wf := dot_S256x64x2352_S512x2352_S256x64x512_2_1_01_0_n_n_wf

class Facts : Prop extends Facts₀ where

variable [Facts]
-- ==== Proof.Spec.lean ====
/-
  The patch-embedding layer as one function of its arrays, index by index, on the extended reals.

  A sequence has 65 positions of 512 features.  Position 0 is the class token times the positional weight of
  position 0.  Position s ≥ 1 is patch s - 1 projected: the sum over the 2352 patch entries of entry times weight,
  plus the bias, all times the positional weight of position s.  The positional table MULTIPLIES; nothing is added
  to it.  The function is written over coordinates (image, patch, entry), (entry, feature), (feature),
  (position, feature), so that it does not depend on how either program lays its arrays out, and for any number
  of images, so that the same function describes a block of images and the whole batch.
-/
import Idealize.ShloMosaic.PureOps.Ideal
import Idealize.ShloMosaic.Lib.ValueIdx

noncomputable section

namespace Cert.PatchEmbed

open Idealize.ShloMosaic Idealize.ShloMosaic.ValueIdx

/-- Sequence position `s ≥ 1` holds patch `s - 1`. -/
def patchOf (s : Fin 65) (h : ¬ s.val = 0) : Fin 64 := ⟨s.val - 1, by have := s.isLt; omega⟩

theorem patchOf_val (s : Fin 65) (h : ¬ s.val = 0) : (patchOf s h).val + 1 = s.val := by
  show s.val - 1 + 1 = s.val; omega

/-- The sequence position that holds patch `p`. -/
def posOf (p : Fin 64) : Fin 65 := ⟨p.val + 1, by have := p.isLt; omega⟩

theorem posOf_ne (p : Fin 64) : ¬ (posOf p).val = 0 := by show ¬ p.val + 1 = 0; omega

theorem patchOf_posOf (p : Fin 64) (h : ¬ (posOf p).val = 0) : patchOf (posOf p) h = p :=
  Fin.ext (by show p.val + 1 - 1 = p.val; omega)

/-- The layer's result for `B` images: `P b p k` entry `k` of patch `p` of image `b`, `w k h` the weight of entry
    `k` for feature `h`, `bias h`, `cls h` the class token, `pos s h` the positional weight. -/
def embed {B : Nat} (P : Fin B → Fin 64 → Fin 2352 → EReal) (w : Fin 2352 → Fin 512 → EReal)
    (bias cls : Fin 512 → EReal) (pos : Fin 65 → Fin 512 → EReal) : (⟨3, ![B, 65, 512]⟩ : Shape).Idx → EReal :=
  fun j =>
    if h : (j 1).val = 0 then cls (j 2) * pos (j 1) (j 2)
    else ((∑ k : Fin 2352, P (j 0) (patchOf (j 1) h) k * w k (j 2)) + bias (j 2)) * pos (j 1) (j 2)

/-- At position 0: the class token times the positional weight. -/
theorem embed_cls {B : Nat} (P : Fin B → Fin 64 → Fin 2352 → EReal) (w : Fin 2352 → Fin 512 → EReal)
    (bias cls : Fin 512 → EReal) (pos : Fin 65 → Fin 512 → EReal) (b : Fin B) (h : Fin 512) :
    embed P w bias cls pos (ix3 b (0 : Fin 65) h) = cls h * pos 0 h := by
  unfold embed; rw [dif_pos (show ((ix3 b (0 : Fin 65) h) 1).val = 0 from rfl)]; rfl

/-- At the position of patch `p`: the projected patch plus the bias, times the positional weight. -/
theorem embed_patch {B : Nat} (P : Fin B → Fin 64 → Fin 2352 → EReal) (w : Fin 2352 → Fin 512 → EReal)
    (bias cls : Fin 512 → EReal) (pos : Fin 65 → Fin 512 → EReal) (b : Fin B) (p : Fin 64) (h : Fin 512) :
    embed P w bias cls pos (ix3 b (posOf p) h)
      = ((∑ k : Fin 2352, P b p k * w k h) + bias h) * pos (posOf p) h := by
  unfold embed
  rw [dif_neg (show ¬ ((ix3 b (posOf p) h) 1).val = 0 from posOf_ne p)]
  show ((∑ k : Fin 2352, P b (patchOf (posOf p) _) k * w k h) + bias h) * pos (posOf p) h = _
  rw [patchOf_posOf]

/-- The layer's function of a selection of the images: image `a` of the selection is image `f a` of the batch, the
    other arrays the same.  Each image's result depends on that image's patches alone. -/
theorem embed_select {B B' : Nat} (P : Fin B → Fin 64 → Fin 2352 → EReal) (P' : Fin B' → Fin 64 → Fin 2352 → EReal)
    (w w' : Fin 2352 → Fin 512 → EReal) (bias bias' cls cls' : Fin 512 → EReal) (pos pos' : Fin 65 → Fin 512 → EReal)
    (f : Fin B' → Fin B) (hP : ∀ a p k, P' a p k = P (f a) p k) (hw : ∀ k h, w' k h = w k h)
    (hb : ∀ h, bias' h = bias h) (hc : ∀ h, cls' h = cls h) (hpos : ∀ s h, pos' s h = pos s h)
    (a : Fin B') (s : Fin 65) (h : Fin 512) :
    embed P' w' bias' cls' pos' (ix3 a s h) = embed P w bias cls pos (ix3 (f a) s h) := by
  obtain rfl : P' = fun a => P (f a) := funext fun a => funext fun p => funext fun k => hP a p k
  obtain rfl : w' = w := funext fun k => funext fun h => hw k h
  obtain rfl : bias' = bias := funext hb
  obtain rfl : cls' = cls := funext hc
  obtain rfl : pos' = pos := funext fun s => funext fun h => hpos s h
  rfl

end Cert.PatchEmbed

end
-- ==== Proof.RefSide.lean ====
/-
  The reference computes the layer's function.

  Read one operation at a time, the reference's result at (image a, position s, feature h) is the concatenation
  of the class row and the projected patches along the position axis, times the positional table repeated over
  the images.  Position 0 falls in the first piece, the class token repeated over the images; position p + 1
  falls in the second, the contraction of patch p with row h of the weight matrix plus the bias.  The patches
  themselves (the rearrangement of the images into 8 × 8 patches of 3 × 28 × 28 entries) are left as the reference
  states them: the kernel's host code rearranges the images by the same operations, so they are never opened.
-/
import proofs.«170380_j46780783788118_2_alg».proof.Proof.Gen.ReferenceIdeal.Read
import proofs.«170380_j46780783788118_2_alg».proof.Proof.Spec
import Idealize.ShloMosaic.Lib.Pipeline.Value
import Idealize.ShloMosaic.Lib.ValueIdx

noncomputable section

namespace Cert.PatchEmbed.Reference

open Cert.ReferenceIdeal Cert.ReferenceIdeal.Gen Cert.ReferenceIdeal.Read Idealize.ShloMosaic Idealize.ShloMosaic.ValueIdx

/-- The reference's patches: entry `k` of patch `p` of image `a`. -/
def patches (X : Vec Ideal S256x3x224x224 .f32) : Fin 256 → Fin 64 → Fin 2352 → EReal :=
  fun a p k => val_main_v2 (F := Ideal) X (ix3 a p k)

/-- The layer's function of the five argument arrays as both programs receive them: the images (through their
    patches), the [512, 2352] weight matrix read as (entry, feature), the bias, the class token, the positional table. -/
def layer (X : Vec Ideal S256x3x224x224 .f32) (W : Vec Ideal S512x2352 .f32) (b : Vec Ideal S512 .f32)
    (cls : Vec Ideal S1x512 .f32) (pos : Vec Ideal S65x512 .f32) : Vec Ideal S256x65x512 .f32 :=
  embed (patches X) (fun k h => W (ix2 h k)) (fun h => b (ix1 h)) (fun h => cls (ix2 (0 : Fin 1) h))
    (fun s h => pos (ix2 s h))

/-- The reference's result is the layer's function of its arguments. -/
theorem result_eq (X : Vec Ideal S256x3x224x224 .f32) (W : Vec Ideal S512x2352 .f32) (b : Vec Ideal S512 .f32)
    (cls : Vec Ideal S1x512 .f32) (pos : Vec Ideal S65x512 .f32) :
    val_main_v12 (F := Ideal) X W b cls pos = layer X W b cls pos := by
  unfold layer
  funext j
  obtain ⟨a, s, h, rfl⟩ : ∃ (a : Fin 256) (s : Fin 65) (h : Fin 512), j = ix3 a s h := ⟨j 0, j 1, j 2, eq_ix3 j⟩
  rw [val_main_v12_apply, val_main_v11_apply, val_main_v10_apply]
  have epos : idx_main_v10 (idx_main_v11 (ix3 a s h)) = ix2 s h :=
    funext fun c => Fin.ext (by match c with | ⟨0, _⟩ => rfl | ⟨1, _⟩ => rfl)
  rw [epos]
  by_cases hs : s.val = 0
  · -- position 0: the first piece of the concatenation, the class token
    obtain rfl : s = 0 := Fin.ext hs
    rw [embed_cls]
    have e9 : val_main_v9 (F := Ideal) X W b cls (ix3 a (0 : Fin 65) h)
        = val_main_v8 (F := Ideal) cls (ix3 a (0 : Fin 1) h) := by
      unfold val_main_v9
      exact concatenate_pair_apply_left (t := S256x65x512) (s₁ := S256x1x512) (s₂ := S256x64x512) (1 : Fin 3)
        (val_main_v8 (F := Ideal) cls) (val_main_v6 (F := Ideal) X W b)
        concatenates_S256x1x512_S256x64x512_S256x65x512_d1
        (ix3 a (0 : Fin 65) h) rfl (ix3 a (0 : Fin 1) h)
        (fun c => by match c with | ⟨0, _⟩ => rfl | ⟨1, _⟩ => rfl | ⟨2, _⟩ => rfl)
    rw [e9, val_main_v8_apply, val_main_v7_apply]
    have ecls : idx_main_v7 (idx_main_v8 (ix3 a (0 : Fin 1) h)) = ix2 (0 : Fin 1) h :=
      funext fun c => Fin.ext (by match c with | ⟨0, _⟩ => rfl | ⟨1, _⟩ => rfl)
    rw [ecls]
    rfl
  · -- position p + 1: the second piece, patch p projected
    obtain ⟨p, rfl⟩ : ∃ p : Fin 64, s = posOf p := ⟨patchOf s hs, Fin.ext (patchOf_val s hs).symm⟩
    rw [embed_patch]
    have e9 : val_main_v9 (F := Ideal) X W b cls (ix3 a (posOf p) h)
        = val_main_v6 (F := Ideal) X W b (ix3 a p h) := by
      unfold val_main_v9
      exact concatenate_pair_apply_right (t := S256x65x512) (s₁ := S256x1x512) (s₂ := S256x64x512) (1 : Fin 3)
        (val_main_v8 (F := Ideal) cls) (val_main_v6 (F := Ideal) X W b)
        concatenates_S256x1x512_S256x64x512_S256x65x512_d1
        (ix3 a (posOf p) h) rfl rfl (ix3 a p h)
        (fun c hc => by
          match c with
          | ⟨0, _⟩ => rfl
          | ⟨1, _⟩ => exact absurd rfl hc
          | ⟨2, _⟩ => rfl)
        rfl
    rw [e9, val_main_v6_apply, val_main_v3_apply, val_main_v5_apply, val_main_v4_apply]
    have ebias : idx_main_v4 (idx_main_v5 (ix3 a p h)) = ix1 h :=
      funext fun c => Fin.ext (by match c with | ⟨0, _⟩ => rfl)
    have el : ∀ k : Fin 2352, lidx_main_v3 (ix3 a p h) k = ix3 a p k := fun k =>
      funext fun c => Fin.ext (by match c with | ⟨0, _⟩ => rfl | ⟨1, _⟩ => rfl | ⟨2, _⟩ => rfl)
    have er : ∀ k : Fin 2352, ridx_main_v3 (ix3 a p h) k = ix2 h k := fun k =>
      funext fun c => Fin.ext (by match c with | ⟨0, _⟩ => rfl | ⟨1, _⟩ => rfl)
    rw [ebias]
    simp only [el, er]
    rfl

end Cert.PatchEmbed.Reference

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.Payload.lean ====
/-
  What the kernel body stores, read at one index, on the extended reals.

  The body makes two stores into its [32, 65, 512] output block.  The first fills position 0 of every image of the
  block: the class-token row times row 0 of the positional table, both repeated over the 32 images.  The second
  fills positions 1 to 64: the 32 × 64 patches of the block are laid out as 2048 rows, multiplied into the
  [2352, 512] weight matrix starting from zero, laid back out as [32, 64, 512], the bias row is added to every
  row, and the result is multiplied by rows 1 to 64 of the positional table, repeated over the 32 images.
  Each lemma below reads one layout step at explicit coordinates; the two payload theorems chain them.
-/
import proofs.«170380_j46780783788118_2_alg».proof.Proof.Gen.KernelIdeal.Skeleton
import proofs.«170380_j46780783788118_2_alg».proof.Proof.LibRowOps
import proofs.«170380_j46780783788118_2_alg».proof.Proof.Spec
import Idealize.ShloMosaic.Lib.Pipeline.Value
import Idealize.ShloMosaic.Lib.ValueIdx
import Idealize.ShloMosaic.PureOps.Ideal.Laws

noncomputable section

namespace Cert.PatchEmbed.Payload

open Cert.KernelIdeal Cert.KernelIdeal.Gen Idealize.ShloMosaic Idealize.ShloMosaic.ValueIdx

/-! ## Layout steps at coordinates -/

section Layout

variable {α : Type}

/-- A [1, n] row viewed as [1, 1, n] and repeated over two leading axes reads, at (a, r, h), the row at h. -/
theorem row_spread {A R n : Nat} (hn : ¬ n = 1) (x : (⟨2, ![1, n]⟩ : Shape).Idx → α)
    (hc : (⟨2, ![1, n]⟩ : Shape).ShapeCasts ⟨3, ![1, 1, n]⟩)
    (hb : (⟨3, ![1, 1, n]⟩ : Shape).Broadcasts ⟨3, ![A, R, n]⟩) (a : Fin A) (r : Fin R) (h : Fin n) :
    broadcastTo ⟨3, ![A, R, n]⟩ (shapeCast ⟨3, ![1, 1, n]⟩ x hc) hb (ix3 a r h) = x (ix2 (0 : Fin 1) h) :=
  (broadcastTo_apply _ hb (ix3 a r h) (ix3 (0 : Fin 1) (0 : Fin 1) h) (fun c => by
    match c with
    | ⟨0, _⟩ => show 0 = if (1 : Nat) = 1 then 0 else a.val; rw [if_pos rfl]
    | ⟨1, _⟩ => show 0 = if (1 : Nat) = 1 then 0 else r.val; rw [if_pos rfl]
    | ⟨2, _⟩ => show h.val = if n = 1 then 0 else h.val; rw [if_neg hn])).trans
  (shapeCast_apply x hc _ (ix2 (0 : Fin 1) h) (by
    rw [Shape.rowMajor_val_two, Shape.rowMajor_val_three]
    show 0 * n + h.val = (0 * 1 + 0) * n + h.val
    omega))

/-- An [r, n] table viewed as [1, r, n] and repeated over a leading axis reads, at (a, p, h), the table at (p, h). -/
theorem table_spread {A r n : Nat} (hr : ¬ r = 1) (hn : ¬ n = 1) (x : (⟨2, ![r, n]⟩ : Shape).Idx → α)
    (hc : (⟨2, ![r, n]⟩ : Shape).ShapeCasts ⟨3, ![1, r, n]⟩)
    (hb : (⟨3, ![1, r, n]⟩ : Shape).Broadcasts ⟨3, ![A, r, n]⟩) (a : Fin A) (p : Fin r) (h : Fin n) :
    broadcastTo ⟨3, ![A, r, n]⟩ (shapeCast ⟨3, ![1, r, n]⟩ x hc) hb (ix3 a p h) = x (ix2 p h) :=
  (broadcastTo_apply _ hb (ix3 a p h) (ix3 (0 : Fin 1) p h) (fun c => by
    match c with
    | ⟨0, _⟩ => show 0 = if (1 : Nat) = 1 then 0 else a.val; rw [if_pos rfl]
    | ⟨1, _⟩ => show p.val = if r = 1 then 0 else p.val; rw [if_neg hr]
    | ⟨2, _⟩ => show h.val = if n = 1 then 0 else h.val; rw [if_neg hn])).trans
  (shapeCast_apply x hc _ (ix2 p h) (by
    rw [Shape.rowMajor_val_two, Shape.rowMajor_val_three]
    show p.val * n + h.val = (0 * r + p.val) * n + h.val
    rw [Nat.zero_mul, Nat.zero_add]))

/-- Rows [o, o + r) of an [R, n] table, every column, read at (p, h): the table at (o + p, h). -/
theorem rows_apply {R r n o : Nat} (x : (⟨2, ![R, n]⟩ : Shape).Idx → α)
    (hs : (⟨2, ![R, n]⟩ : Shape).Slices ![o, 0] ⟨2, ![r, n]⟩) (p : Fin r) (h : Fin n) (q : Fin R)
    (hq : q.val = o + p.val) :
    extractStridedSlice ⟨2, ![r, n]⟩ ![o, 0] x hs (ix2 p h) = x (ix2 q h) :=
  extractStridedSlice_apply _ x hs (ix2 p h) (ix2 q h) (fun c => by
    match c with
    | ⟨0, _⟩ => exact hq
    | ⟨1, _⟩ => show h.val = 0 + h.val; omega)

/-- An [A, R, n] block laid out as A·R rows reads, at (a·R + r, k), the block at (a, r, k). -/
theorem rows_of_block {A R n : Nat} (x : (⟨3, ![A, R, n]⟩ : Shape).Idx → α)
    (hc : (⟨3, ![A, R, n]⟩ : Shape).ShapeCasts ⟨2, ![A * R, n]⟩) (a : Fin A) (r : Fin R) (k : Fin n)
    (q : Fin (A * R)) (hq : q.val = a.val * R + r.val) :
    shapeCast ⟨2, ![A * R, n]⟩ x hc (ix2 q k) = x (ix3 a r k) :=
  shapeCast_apply x hc _ (ix3 a r k) (by
    rw [Shape.rowMajor_val_two, Shape.rowMajor_val_three]
    show (a.val * R + r.val) * n + k.val = q.val * n + k.val
    rw [hq])

/-- A·R rows laid back out as an [A, R, n] block read, at (a, r, h), row a·R + r at h. -/
theorem block_of_rows {A R n : Nat} (x : (⟨2, ![A * R, n]⟩ : Shape).Idx → α)
    (hc : (⟨2, ![A * R, n]⟩ : Shape).ShapeCasts ⟨3, ![A, R, n]⟩) (a : Fin A) (r : Fin R) (h : Fin n)
    (q : Fin (A * R)) (hq : q.val = a.val * R + r.val) :
    shapeCast ⟨3, ![A, R, n]⟩ x hc (ix3 a r h) = x (ix2 q h) :=
  shapeCast_apply x hc _ (ix2 q h) (by
    rw [Shape.rowMajor_val_two, Shape.rowMajor_val_three]
    show q.val * n + h.val = (a.val * R + r.val) * n + h.val
    rw [hq])

end Layout

/-! ## The two stores -/

/-- The body's matrix product is a plain [2048, 2352] × [2352, 512] one. -/
theorem plain : Cert.RowOps.IsPlain dot_S2048x2352_S2352x512_S2048x512_1_0_0_1_n_n := ⟨rfl, rfl, rfl, rfl, rfl, rfl⟩

/-- Row a·64 + p of the 2048 rows. -/
def rowOf (a : Fin 32) (p : Fin 64) : Fin 2048 := ⟨a.val * 64 + p.val, by have := a.isLt; have := p.isLt; omega⟩

/-- The first store, at image `a` of the block and feature `h`: class token times positional row 0. -/
theorem pay1_apply (pos : Vec Ideal S65x512 .f32) (cls : Vec Ideal S1x512 .f32) (a : Fin 32) (u : Fin 1) (h : Fin 512) :
    k0_pay1 pos cls (ix3 a u h) = cls (ix2 (0 : Fin 1) h) * pos (ix2 (0 : Fin 65) h) := by
  show (broadcastTo S32x1x512 (shapeCast S1x1x512 (shapeCast S1x1x512 cls shapeCasts_S1x512_S1x1x512) shapeCasts_S1x1x512_S1x1x512) broadcasts_S1x1x512_S32x1x512 (ix3 a u h))
      * (broadcastTo S32x1x512 (shapeCast S1x1x512 (extractStridedSlice S1x512 ![0, 0] pos slices_S65x512_o0_0_S1x512) shapeCasts_S1x512_S1x1x512) broadcasts_S1x1x512_S32x1x512 (ix3 a u h)) = _
  rw [shapeCast_self, row_spread (by decide), row_spread (by decide),
    rows_apply pos slices_S65x512_o0_0_S1x512 (0 : Fin 1) h (0 : Fin 65) rfl]

/-- The second store, at image `a` of the block, patch `p` and feature `h`: the patch's 2352 entries times the
    weights of feature `h`, summed, plus the bias, times the positional weight of position p + 1. -/
theorem pay2_apply (x : Vec Ideal S32x64x2352 .bf16) (wt : Vec Ideal S2352x512 .bf16) (bias : Vec Ideal S1x512 .f32)
    (pos : Vec Ideal S65x512 .f32) (a : Fin 32) (p : Fin 64) (h : Fin 512) :
    k0_pay2 x wt bias pos (ix3 a p h)
      = ((∑ k : Fin 2352, x (ix3 a p k) * wt (ix2 k h)) + bias (ix2 (0 : Fin 1) h)) * pos (ix2 (posOf p) h) := by
  show ((shapeCast S32x64x512 (matmul (F := Ideal) dot_S2048x2352_S2352x512_S2048x512_1_0_0_1_n_n none
          (shapeCast S2048x2352 (shapeCast S32x64x2352 x shapeCasts_S32x64x2352_S32x64x2352) shapeCasts_S32x64x2352_S2048x2352)
          (shapeCast S2352x512 wt shapeCasts_S2352x512_S2352x512) (constant (F := Ideal) S2048x512 .f32 0x00000000#32)) shapeCasts_S2048x512_S32x64x512 (ix3 a p h))
        + (broadcastTo S32x64x512 (shapeCast S1x1x512 (shapeCast S1x512 bias shapeCasts_S1x512_S1x512) shapeCasts_S1x512_S1x1x512) broadcasts_S1x1x512_S32x64x512 (ix3 a p h)))
      * (broadcastTo S32x64x512 (shapeCast S1x64x512 (extractStridedSlice S64x512 ![1, 0] pos slices_S65x512_o1_0_S64x512) shapeCasts_S64x512_S1x64x512) broadcasts_S1x64x512_S32x64x512 (ix3 a p h)) = _
  rw [shapeCast_self, shapeCast_self, shapeCast_self, row_spread (by decide), table_spread (by decide) (by decide),
    rows_apply pos slices_S65x512_o1_0_S64x512 p h (posOf p) (by show p.val + 1 = 1 + p.val; omega),
    block_of_rows _ shapeCasts_S2048x512_S32x64x512 a p h (rowOf a p) rfl]
  show ((FloatOps.matmul (F := Ideal) dot_S2048x2352_S2352x512_S2048x512_1_0_0_1_n_n none _ _ (constant (F := Ideal) S2048x512 .f32 0x00000000#32)) (ix2 (rowOf a p) h) + _) * _ = _
  rw [Cert.RowOps.matmul_zero_apply plain]
  congr 2
  refine Finset.sum_congr rfl fun k _ => ?_
  rw [rows_of_block x shapeCasts_S32x64x2352_S2048x2352 a p k (rowOf a p) rfl]

end Cert.PatchEmbed.Payload

end
-- ==== Proof.Block.lean ====
/-
  What one grid point leaves in its output block.

  The body's two stores fill disjoint parts of the [32, 65, 512] block: position 0 of every image, and positions
  1 to 64 of every image.  Together they cover it, so the block is read off the stores alone: an index at position
  0 lies under the first store and reads the class token times positional row 0; an index at position p + 1 lies
  under the second and reads patch p projected, plus bias, times positional row p + 1.  That is the layer's
  function for 32 images, of the blocks the body loaded.
-/
import proofs.«170380_j46780783788118_2_alg».proof.Proof.Gen.KernelIdeal.Frame
import proofs.«170380_j46780783788118_2_alg».proof.Proof.Payload
import proofs.«170380_j46780783788118_2_alg».proof.Proof.Spec
import Idealize.ShloMosaic.Lib.Pipeline.Value

set_option maxRecDepth 16384

noncomputable section

namespace Cert.PatchEmbed.Block

open Cert.KernelIdeal Cert.KernelIdeal.Gen Idealize.ShloMosaic Idealize.ShloMosaic.TcCoe Idealize.ShloMosaic.ValueIdx
open Idealize.SL.Sem Cert.PatchEmbed.Payload

theorem hz3 : (![0, 0, 0] : Fin 3 → Nat) = fun _ => 0 := funext fun a => by fin_cases a <;> rfl
theorem hz2 : (![0, 0] : Fin 2 → Nat) = fun _ => 0 := funext fun a => by fin_cases a <;> rfl

/-- The older store's rectangle: position 0 of every image. -/
abbrev rectCls : Rect S32x65x512 := Rect.unit ![0, 0, 0] ![32, 1, 512] inb_S32x65x512_S32x1x512_0_0_0
/-- The newer store's rectangle: positions 1 to 64 of every image. -/
abbrev rectTok : Rect S32x65x512 := Rect.unit ![0, 1, 0] ![32, 64, 512] inb_S32x65x512_S32x64x512_0_1_0

/-- An index at position 0 reads the older store's value at (image, 0, feature). -/
theorem canon_cls (w2 : S32x64x512.Idx → EReal) (w1 : S32x1x512.Idx → EReal) (a : Fin 32) (h : Fin 512) :
    View.canon (Val := Elt Ideal) (s := S32x65x512) (e := .f32) [⟨rectTok, w2⟩, ⟨rectCls, w1⟩] (ix3 a (0 : Fin 65) h)
      = w1 (ix3 a (0 : Fin 1) h) := by
  have hnot : ix3 a (0 : Fin 65) h ∉ rectTok.set := fun hm => by
    have h1 : (1 : Nat) ≤ 0 := (Rect.mem_set_unit.mp hm (1 : Fin 3)).1
    omega
  have e : ix3 a (0 : Fin 65) h = rectCls.emb (ix3 a (0 : Fin 1) h) :=
    funext fun d => Fin.ext (by
      match d with
      | ⟨0, _⟩ => show a.val = 0 + 1 * a.val; omega
      | ⟨1, _⟩ => show 0 = 0 + 1 * 0; omega
      | ⟨2, _⟩ => show h.val = 0 + 1 * h.val; omega)
  refine (View.canon_cons_of_not_mem (Val := Elt Ideal) (e := .f32) (⟨rectTok, w2⟩ : View.Piece (Elt Ideal) S32x65x512 .f32) [⟨rectCls, w1⟩] hnot).trans ?_
  refine (congrArg (View.canon (Val := Elt Ideal) (s := S32x65x512) (e := .f32) [⟨rectCls, w1⟩]) e).trans ?_
  exact View.canon_cons_emb (Val := Elt Ideal) (e := .f32) rectCls w1 [] (ix3 a (0 : Fin 1) h)

/-- An index at position p + 1 reads the newer store's value at (image, p, feature). -/
theorem canon_tok (w2 : S32x64x512.Idx → EReal) (w1 : S32x1x512.Idx → EReal) (a : Fin 32) (p : Fin 64) (h : Fin 512) :
    View.canon (Val := Elt Ideal) (s := S32x65x512) (e := .f32) [⟨rectTok, w2⟩, ⟨rectCls, w1⟩] (ix3 a (posOf p) h)
      = w2 (ix3 a p h) := by
  have e : ix3 a (posOf p) h = rectTok.emb (ix3 a p h) :=
    funext fun d => Fin.ext (by
      match d with
      | ⟨0, _⟩ => show a.val = 0 + 1 * a.val; omega
      | ⟨1, _⟩ => show p.val + 1 = 1 + 1 * p.val; omega
      | ⟨2, _⟩ => show h.val = 0 + 1 * h.val; omega)
  refine (congrArg (View.canon (Val := Elt Ideal) (s := S32x65x512) (e := .f32) [⟨rectTok, w2⟩, ⟨rectCls, w1⟩]) e).trans ?_
  exact View.canon_cons_emb (Val := Elt Ideal) (e := .f32) rectTok w2 [⟨rectCls, w1⟩] (ix3 a p h)

/-- The layer's function for the 32 images of a block, of the five loaded blocks. -/
def ofBlocks (x0 : Vec Ideal S32x64x2352 .bf16) (x1 : Vec Ideal S2352x512 .bf16) (x2 : Vec Ideal S1x512 .f32)
    (x3 : Vec Ideal S1x512 .f32) (x4 : Vec Ideal S65x512 .f32) : Vec Ideal S32x65x512 .f32 :=
  embed (B := 32) (fun a p k => x0 (ix3 a p k)) (fun k h => x1 (ix2 k h)) (fun h => x2 (ix2 (0 : Fin 1) h))
    (fun h => x3 (ix2 (0 : Fin 1) h)) (fun s h => x4 (ix2 s h))

/-- After the body, the output block holds the layer's function of the loaded blocks. -/
theorem out_eq (c : Dev nD) (i : grid0.Coords) (a1 : Memref sig .tc .vmem S32x64x2352 .bf16) (h1 : a1.IsWhole)
    (a2 : Memref sig .tc .vmem S2352x512 .bf16) (h2 : a2.IsWhole) (a3 : Memref sig .tc .vmem S1x512 .f32) (h3 : a3.IsWhole)
    (a4 : Memref sig .tc .vmem S1x512 .f32) (h4 : a4.IsWhole) (a5 : Memref sig .tc .vmem S65x512 .f32) (h5 : a5.IsWhole)
    (a6 : Memref sig .tc .vmem S32x65x512 .f32) (h6 : a6.IsWhole)
    (x0 : Vec Ideal S32x64x2352 .bf16) (x1 : Vec Ideal S2352x512 .bf16) (x2 : Vec Ideal S1x512 .f32)
    (x3 : Vec Ideal S1x512 .f32) (x4 : Vec Ideal S65x512 .f32) :
    out0_A_5 (F := Ideal) c i a1 h1 a2 h2 a3 h3 a4 h4 a5 h5 a6 h6 x0 x1 x2 x3 x4 = ofBlocks x0 x1 x2 x3 x4 := by
  unfold out0_A_5
  rw [View.read_writes_eq_canon _ _ _ (cover0_A_5 c i a1 h1 a2 h2 a3 h3 a4 h4 a5 h5 a6 h6 x0 x1 x2 x3 x4)]
  unfold kernelRun0_A
  dsimp only
  simp only [View.readAt_eq_ld, h1.read_unread, h2.read_unread, h3.read_unread, h4.read_unread, h5.read_unread,
    View.ld_unit_zero (S := S32x64x2352) hz3, View.ld_unit_zero (S := S2352x512) hz2,
    View.ld_unit_zero (S := S1x512) hz2, View.ld_unit_zero (S := S65x512) hz2]
  funext y
  obtain ⟨a, s, h, rfl⟩ : ∃ (a : Fin 32) (s : Fin 65) (h : Fin 512), y = ix3 a s h := ⟨y 0, y 1, y 2, eq_ix3 y⟩
  unfold ofBlocks
  by_cases hs : s.val = 0
  · -- position 0: under the older store
    obtain rfl : s = 0 := Fin.ext hs
    rw [embed_cls]
    exact (canon_cls _ _ a h).trans (pay1_apply x4 x3 a (0 : Fin 1) h)
  · -- position p + 1: under the newer store
    obtain ⟨p, rfl⟩ : ∃ p : Fin 64, s = posOf p := ⟨patchOf s hs, Fin.ext (patchOf_val s hs).symm⟩
    rw [embed_patch]
    exact (canon_tok _ _ a p h).trans (pay2_apply x0 x1 x2 x4 a p h)

end Cert.PatchEmbed.Block

end
-- ==== Proof.Whole.lean ====
/-
  From the blocks to the whole result array.

  The grid has 8 points.  Point t works on images 32 t to 32 t + 31: its patch block and its output block are block
  t along the image axis, and it sees the weight matrix, the bias row, the class token and the positional table
  whole.  The layer's result for an image depends on that image's patches only, so what point t writes back is
  block t of ONE function of the arrays the region finds: the layer's function for all 256 images.  The eight
  output blocks are disjoint and fill the array (image i lies in block i / 32), so the array ends holding that
  function.
-/
import proofs.«170380_j46780783788118_2_alg».proof.Proof.Gen.KernelIdeal.Value
import proofs.«170380_j46780783788118_2_alg».proof.Proof.Block
import proofs.«170380_j46780783788118_2_alg».proof.Proof.Spec
import Idealize.ShloMosaic.Lib.Pipeline.Value

set_option maxRecDepth 16384

noncomputable section

namespace Cert.PatchEmbed.Whole

open Cert.KernelIdeal Cert.KernelIdeal.Gen Idealize.ShloMosaic Idealize.ShloMosaic.TcCoe Idealize.ShloMosaic.ValueIdx
open Idealize.SL.Sem Cert.PatchEmbed.Block
open Idealize.ShloMosaic.Pipeline (Dat)

variable (m : (ℓ : Loc nD τ sig) → Buf (Elt Ideal) ℓ) (ρ : Dev nD → PrngReg)

/-- The layer's function for all 256 images, of the five arrays as the region finds them: the patches, the weight
    matrix as (entry, feature), the bias row, the class token, the positional table. -/
def ofArrays (c : Dev nD) : Buf (Elt Ideal) ((c : Thread nD τ).loc main_v7) :=
  embed (B := 256) (fun a p k => (V m c main_v3 : S256x64x2352.Idx → EReal) (ix3 a p k))
    (fun k h => (V m c main_v5 : S2352x512.Idx → EReal) (ix2 k h))
    (fun h => (V m c main_v6 : S1x512.Idx → EReal) (ix2 (0 : Fin 1) h))
    (fun h => (V m c main_arg3 : S1x512.Idx → EReal) (ix2 (0 : Fin 1) h))
    (fun s h => (V m c main_arg4 : S65x512.Idx → EReal) (ix2 s h))

/-- The printed index maps, decided over the 8 points: the patch window and the output window are at block t
    along the image axis, every other window at block 0. -/
theorem idx_facts : ∀ t : Fin cfg0.N,
    win0_5.index t (0 : Fin 3) = t.val ∧ win0_5.index t (1 : Fin 3) = 0 ∧ win0_5.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Image `a` of point `t`'s block is image 32 t + a of the batch. -/
def imgOf (t : Fin cfg0.N) (a : Fin 32) : Fin 256 :=
  ⟨t.val * 32 + a.val, by have ht := t.isLt; have e : cfg0.N = 8 := N_0; have := a.isLt; omega⟩

/-- What point `t` writes back is block `t` of the layer's function of the arrays. -/
theorem flushed_eq (c : Dev nD) (t : Fin cfg0.N) :
    (dats m 0 c).flushed 5 t = ((cfg0.win 5).blk t).view.read (Elt Ideal) (ofArrays m c) := by
  rw [Cert.KernelIdeal.Value.flushed5]
  unfold outsAt0
  rw [out_eq]
  obtain ⟨e50, e51, e52, e00, e01, e02, e10, e11, e20, e21, e30, e31, e40, e41⟩ := idx_facts t
  funext y
  show ofBlocks (iblk m c 0 t) (iblk m c 1 t) (iblk m c 2 t) (iblk m c 3 t) (iblk m c 4 t) y
    = ofArrays m c (((cfg0.win 5).blk t).view.emb y)
  obtain ⟨a, s, h, rfl⟩ : ∃ (a : Fin 32) (s : Fin 65) (h : Fin 512), y = ix3 a s h := ⟨y 0, y 1, y 2, eq_ix3 y⟩
  have eout : ((cfg0.win 5).blk t).view.emb (ix3 a s h) = ix3 (imgOf t a) s h :=
    funext fun d => Fin.ext (by
      match d with
      | ⟨0, _⟩ => show win0_5.index t (0 : Fin 3) * 32 + 1 * a.val = t.val * 32 + a.val; rw [e50]; omega
      | ⟨1, _⟩ => show win0_5.index t (1 : Fin 3) * 65 + 1 * s.val = s.val; rw [e51]; omega
      | ⟨2, _⟩ => show win0_5.index t (2 : Fin 3) * 512 + 1 * h.val = h.val; rw [e52]; omega)
  rw [eout]
  unfold ofBlocks ofArrays
  refine embed_select _ _ _ _ _ _ _ _ _ _ (imgOf t) (fun a p k => ?_) (fun k h => ?_) (fun h => ?_) (fun h => ?_) (fun s h => ?_) a s h
  · show (V m c main_v3 : S256x64x2352.Idx → EReal) (((cfg0.win 0).blk t).view.emb (ix3 a p k)) = (V m c main_v3 : S256x64x2352.Idx → EReal) (ix3 (imgOf t a) p k)
    refine congrArg _ (funext fun d => Fin.ext ?_)
    match d with
    | ⟨0, _⟩ => show win0_0.index t (0 : Fin 3) * 32 + 1 * a.val = t.val * 32 + a.val; rw [e00]; omega
    | ⟨1, _⟩ => show win0_0.index t (1 : Fin 3) * 64 + 1 * p.val = p.val; rw [e01]; omega
    | ⟨2, _⟩ => show win0_0.index t (2 : Fin 3) * 2352 + 1 * k.val = k.val; rw [e02]; omega
  · show (V m c main_v5 : S2352x512.Idx → EReal) (((cfg0.win 1).blk t).view.emb (ix2 k h)) = (V m c main_v5 : S2352x512.Idx → EReal) (ix2 k h)
    refine congrArg _ (funext fun d => Fin.ext ?_)
    match d with
    | ⟨0, _⟩ => show win0_1.index t (0 : Fin 2) * 2352 + 1 * k.val = k.val; rw [e10]; omega
    | ⟨1, _⟩ => show win0_1.index t (1 : Fin 2) * 512 + 1 * h.val = h.val; rw [e11]; omega
  · show (V m c main_v6 : S1x512.Idx → EReal) (((cfg0.win 2).blk t).view.emb (ix2 (0 : Fin 1) h)) = (V m c main_v6 : S1x512.Idx → EReal) (ix2 (0 : Fin 1) h)
    refine congrArg _ (funext fun d => Fin.ext ?_)
    match d with
    | ⟨0, _⟩ => show win0_2.index t (0 : Fin 2) * 1 + 1 * 0 = 0; rw [e20]
    | ⟨1, _⟩ => show win0_2.index t (1 : Fin 2) * 512 + 1 * h.val = h.val; rw [e21]; omega
  · show (V m c main_arg3 : S1x512.Idx → EReal) (((cfg0.win 3).blk t).view.emb (ix2 (0 : Fin 1) h)) = (V m c main_arg3 : S1x512.Idx → EReal) (ix2 (0 : Fin 1) h)
    refine congrArg _ (funext fun d => Fin.ext ?_)
    match d with
    | ⟨0, _⟩ => show win0_3.index t (0 : Fin 2) * 1 + 1 * 0 = 0; rw [e30]
    | ⟨1, _⟩ => show win0_3.index t (1 : Fin 2) * 512 + 1 * h.val = h.val; rw [e31]; omega
  · show (V m c main_arg4 : S65x512.Idx → EReal) (((cfg0.win 4).blk t).view.emb (ix2 s h)) = (V m c main_arg4 : S65x512.Idx → EReal) (ix2 s h)
    refine congrArg _ (funext fun d => Fin.ext ?_)
    match d with
    | ⟨0, _⟩ => show win0_4.index t (0 : Fin 2) * 65 + 1 * s.val = s.val; rw [e40]; omega
    | ⟨1, _⟩ => show win0_4.index t (1 : Fin 2) * 512 + 1 * h.val = h.val; rw [e41]; omega

/-- An index of the result array is in point `t`'s block iff each coordinate is in the block's range on its axis. -/
theorem mem_blk (t : Fin cfg0.N) (i : S256x65x512.Idx) :
    i ∈ ((cfg0.win 5).blk t).view.set ↔ ∀ a : Fin 3, win0_5.index t a * S32x65x512.size a ≤ (i a).val
      ∧ (i a).val < win0_5.index t a * S32x65x512.size a + S32x65x512.size a := by
  show i ∈ ((View.whole main_v7).slice (win0_5.rect t)).set ↔ _
  rw [View.set_slice_whole, Rect.mem_set_unit]
  exact Iff.rfl

/-- Every index of the result array is in the block of the point that works on its image. -/
theorem cover (i : S256x65x512.Idx) :
    ∃ t : Fin cfg0.N, (cfg0.win 5).flush t = true ∧ i ∈ ((cfg0.win 5).blk t).view.set := by
  have hi0 : (i 0).val < 256 := (i 0).isLt
  have hi1 : (i 1).val < 65 := (i 1).isLt
  have hi2 : (i 2).val < 512 := (i 2).isLt
  have hlt : (i 0).val / 32 < cfg0.N := by have e : cfg0.N = 8 := N_0; omega
  obtain ⟨e50, e51, e52, -⟩ := idx_facts ⟨(i 0).val / 32, hlt⟩
  refine ⟨⟨(i 0).val / 32, hlt⟩, flush0_5 _, ?_⟩
  rw [mem_blk]
  intro a
  match a with
  | ⟨0, _⟩ =>
    show win0_5.index ⟨(i 0).val / 32, hlt⟩ (0 : Fin 3) * 32 ≤ (i 0).val ∧ (i 0).val < win0_5.index ⟨(i 0).val / 32, hlt⟩ (0 : Fin 3) * 32 + 32
    rw [e50]; show (i 0).val / 32 * 32 ≤ (i 0).val ∧ (i 0).val < (i 0).val / 32 * 32 + 32; omega
  | ⟨1, _⟩ =>
    show win0_5.index ⟨(i 0).val / 32, hlt⟩ (1 : Fin 3) * 65 ≤ (i 1).val ∧ (i 1).val < win0_5.index ⟨(i 0).val / 32, hlt⟩ (1 : Fin 3) * 65 + 65
    rw [e51]; omega
  | ⟨2, _⟩ =>
    show win0_5.index ⟨(i 0).val / 32, hlt⟩ (2 : Fin 3) * 512 ≤ (i 2).val ∧ (i 2).val < win0_5.index ⟨(i 0).val / 32, hlt⟩ (2 : Fin 3) * 512 + 512
    rw [e52]; omega

/-- After the run the result array holds the layer's function of the arrays the region found. -/
theorem final (c : Dev nD) : (dats m 0 c).arrAt 5 cfg0.N = ofArrays m c :=
  (dats m 0 c).arrAt_eq_of_cover 5 (ofArrays m c) (fun t _ => flushed_eq m c t) cover

end Cert.PatchEmbed.Whole

end
-- ==== Proof.Entry.lean ====
/-
  What the region finds, and the kernel's run.

  Before the region the host rearranges the images into patches by the same three operations as the reference
  (split the two 224-pixel axes into 8 × 28, bring the two patch-grid axes forward, merge), after a change of float
  format that is the identity on the extended reals; it transposes the weight matrix, so that the region's
  [2352, 512] matrix at (k, h) is the argument's at (h, k); and it views the bias as one row.  The class token and
  the positional table reach the region as they are.  So the layer's function of the arrays the region finds is
  the layer's function of the arguments, and the kernel's run ends with the result array at it.
-/
import proofs.«170380_j46780783788118_2_alg».proof.Proof.Gen.KernelIdeal.Value
import proofs.«170380_j46780783788118_2_alg».proof.Proof.Whole
import proofs.«170380_j46780783788118_2_alg».proof.Proof.RefSide
import proofs.«170380_j46780783788118_2_alg».proof.Proof.LibRowOps
import Idealize.ShloMosaic.Lib.StableHlo.Run
import Idealize.ShloMosaic.Lib.Pipeline.Value

set_option maxRecDepth 16384

noncomputable section

namespace Cert.PatchEmbed.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The patch array the region finds is the reference's rearrangement of the images. -/
theorem V_patches (c : Dev nD) :
    (V m c main_v3 : S256x64x2352.Idx → EReal)
      = Cert.ReferenceIdeal.Read.val_main_v2 (F := Ideal) (m ((c : Thread nD τ).loc main_arg0)) := by
  have e : (V m c main_v3 : S256x64x2352.Idx → EReal)
      = shapeCast S256x64x2352 (transpose S256x8x8x3x28x28 [0, 2, 4, 1, 3, 5]
          (shapeCast S256x3x8x28x8x28 (truncf (F := Ideal) .bf16 (m ((c : Thread nD τ).loc main_arg0)) bitsLt_bf16_f32)
            shapeCasts_S256x3x224x224_S256x3x8x28x8x28)
          transposes_S256x3x8x28x8x28_S256x8x8x3x28x28_0_2_4_1_3_5) shapeCasts_S256x8x8x3x28x28_S256x64x2352 := by
    dsimp only [V, hostOps0]; after_results <;> rfl
  rw [e]; rfl

/-- The weight matrix the region finds, at (entry k, feature h), is the argument's at (h, k). -/
theorem V_weights (c : Dev nD) (k : Fin 2352) (h : Fin 512) :
    (V m c main_v5 : S2352x512.Idx → EReal) (ix2 k h)
      = (m ((c : Thread nD τ).loc main_arg1) : S512x2352.Idx → EReal) (ix2 h k) := by
  have e : (V m c main_v5 : S2352x512.Idx → EReal)
      = truncf (F := Ideal) .bf16 (transpose S2352x512 [1, 0] (m ((c : Thread nD τ).loc main_arg1))
          transposes_S512x2352_S2352x512_1_0) bitsLt_bf16_f32 := by
    dsimp only [V, hostOps0]; after_results <;> rfl
  rw [e]
  exact Cert.RowOps.swap_apply (m ((c : Thread nD τ).loc main_arg1) : S512x2352.Idx → EReal)
    transposes_S512x2352_S2352x512_1_0 k h

/-- The bias row the region finds, at feature h, is the argument's entry h. -/
theorem V_bias (c : Dev nD) (h : Fin 512) :
    (V m c main_v6 : S1x512.Idx → EReal) (ix2 (0 : Fin 1) h)
      = (m ((c : Thread nD τ).loc main_arg2) : S512.Idx → EReal) (ix1 h) := by
  have e : (V m c main_v6 : S1x512.Idx → EReal)
      = shapeCast S1x512 (m ((c : Thread nD τ).loc main_arg2)) shapeCasts_S512_S1x512 := by
    dsimp only [V, hostOps0]; after_results <;> rfl
  rw [e]
  exact shapeCast_apply _ shapeCasts_S512_S1x512 _ (ix1 h) (by
    rw [Shape.rowMajor_val_one, Shape.rowMajor_val_two]
    show h.val = 0 * 512 + h.val
    omega)

/-- The layer's function of the arrays the region finds is the layer's function of the arguments. -/
theorem ofArrays_eq (c : Dev nD) :
    Cert.PatchEmbed.Whole.ofArrays m c
      = Cert.PatchEmbed.Reference.layer (m ((c : Thread nD τ).loc main_arg0)) (m ((c : Thread nD τ).loc main_arg1))
          (m ((c : Thread nD τ).loc main_arg2)) (m ((c : Thread nD τ).loc main_arg3)) (m ((c : Thread nD τ).loc main_arg4)) := by
  unfold Cert.PatchEmbed.Whole.ofArrays Cert.PatchEmbed.Reference.layer Cert.PatchEmbed.Reference.patches
  simp only [V_patches m c, V_weights m c, V_bias m c, V_main_arg3 m c, V_main_arg4 m c]

/-- The kernel's run: every weakly fair execution terminates with the result array at the layer's function of the
    arguments, the arguments unchanged. -/
theorem run : θ_run defs (onTc (τ := τ) (main (F := Ideal))) ⟨m, fun _ => 0, ρ⟩ fun r => ∀ c : Dev nD,
      r.2.mem ((c : Thread nD τ).loc main_v7)
        = Cert.PatchEmbed.Reference.layer (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(h c).1.trans ((Cert.PatchEmbed.Whole.final m c).trans (ofArrays_eq m c)), (h c).2⟩)
    (Cert.KernelIdeal.Value.run_blocks m ρ)

end Cert.PatchEmbed.Entry

end
-- ==== Proof.lean ====
/-
  A patch-embedding layer on the extended reals: the kernel and its reference compute one function.

  Five arrays: 256 images of 3 × 224 × 224, a [512, 2352] weight matrix, a bias of 512, a class token [1, 512] and a
  positional table [65, 512].  Each image is cut into 8 × 8 patches of 3 × 28 × 28 = 2352 entries.  The result is
  [256, 65, 512]: position 0 of every image is the class token times row 0 of the positional table; position p + 1 is
  patch p contracted with the weight matrix over its 2352 entries, plus the bias, times row p + 1 of the table.

  The reference does this in one pass over the whole batch and joins the class row to the projected patches by a
  concatenation.  The kernel's host code cuts the patches by the same operations, transposes the weight matrix and
  views the bias as a row; its grid of 8 points then handles 32 images each, one matrix product of the point's
  2048 patch rows into a zero accumulator, and writes the class row and the 64 patch rows by two stores.

  Both results are the same function of the arguments, index by index, with the same sum over the 2352 entries in
  each: a sum of extended reals does not depend on its order or grouping, the changes of float format are the
  identity, and no law that needs finite values is used, so the precondition is never opened.

  Modules: Spec (the function), RefSide (the reference is it), Payload (the two stores read at an index), Block (a
  point's output block), Whole (the eight blocks make the array), Entry (what the region finds; the kernel's run).
-/
import proofs.«170380_j46780783788118_2_alg».proof.Defs
import proofs.«170380_j46780783788118_2_alg».proof.Proof.Gen.Kernel
import proofs.«170380_j46780783788118_2_alg».proof.Proof.Gen.Kernel.Frame
import proofs.«170380_j46780783788118_2_alg».proof.Proof.Gen.KernelIdeal
import proofs.«170380_j46780783788118_2_alg».proof.Proof.Gen.KernelIdeal.Frame
import proofs.«170380_j46780783788118_2_alg».proof.Proof.Gen.KernelIdeal.Value
import proofs.«170380_j46780783788118_2_alg».proof.Proof.Gen.ReferenceIdeal
import proofs.«170380_j46780783788118_2_alg».proof.Proof.Gen.ReferenceIdeal.Run
import proofs.«170380_j46780783788118_2_alg».proof.Proof.Gen.ReferenceIdeal.Read
import proofs.«170380_j46780783788118_2_alg».proof.Proof.Gen.Pre_finite_inputs
import proofs.«170380_j46780783788118_2_alg».proof.Proof.RefSide
import proofs.«170380_j46780783788118_2_alg».proof.Proof.Entry
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the five arguments, the kernel's result array and the reference's both end at the
    layer's function of those arguments. -/
theorem algebraic : Cert.algebraic_KernelIdeal_ReferenceIdeal := by
  intro m ρ m' ρ' _ hagree
  refine ⟨_, Cert.PatchEmbed.Entry.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.PatchEmbed.Reference.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
